-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩
abbrev S8192x8192 : Shape := ⟨2, ![8192, 8192]⟩
abbrev S8192 : Shape := ⟨1, ![8192]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x64_S8192x64_S8192x8192_1_1_0_0_n_n_wf : DotDims.WF S8192x64 S8192x64 S8192x8192 [1] [1] [0] [0] [] []

variable [Facts]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := (fun l r => Host.dotGeneral dot_S8192x64_S8192x64_S8192x8192_1_1_0_0_n_n none l r) main_arg0 main_arg0
  let main_cst_0 : FVec F S_ .f32 := constant S_ .f32 0x00000000#32
  let main_v5 : FVec F S8192 .f32 := (fun x v => Host.reduceAdd x v reducesTo_S8192x8192_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .une main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x64 : Shape := ⟨2, ![8192, 64]⟩
abbrev S1024x64 : Shape := ⟨2, ![1024, 64]⟩
abbrev S64x64 : Shape := ⟨2, ![64, 64]⟩
abbrev S1x64 : Shape := ⟨2, ![1, 64]⟩
abbrev S64 : Shape := ⟨1, ![64]⟩
abbrev S1024 : Shape := ⟨1, ![1024]⟩
abbrev S1024x1 : Shape := ⟨2, ![1024, 1]⟩

abbrev nBuf : Space → Nat
  | .hbm => 2
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .local _ .vmem, ⟨0, _⟩ => ⟨S8192x64, .f32⟩
  | .local _ .vmem, ⟨1, _⟩ => ⟨S1024x64, .f32⟩
  | .local _ .vmem, ⟨2, _⟩ => ⟨S1024x64, .f32⟩
  | .local _ .vmem, ⟨3, _⟩ => ⟨S64x64, .f32⟩
  | .local _ .vmem, ⟨4, _⟩ => ⟨S1x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v3 : BitVec 32 := Scalar.muli arg0 c1024_i32
  v3
def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S8192x64_S64 : S8192x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S1024x64 : 0 < S1024x64.numel
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  dot_S8192x64_S8192x64_S64x64_0_0_1_1_n_n_wf : DotDims.WF S8192x64 S8192x64 S64x64 [0] [0] [1] [1] [] []
  dot_S1024x64_S64x64_S1024x64_1_0_0_1_n_n_wf : DotDims.WF S1024x64 S64x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S8192x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 8
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | .hbm, ⟨7, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []
  dot_S8192x8192_S8192x64_S8192x64_1_0_0_1_n_n_wf : DotDims.WF S8192x8192 S8192x64 S8192x64 [1] [0] [0] [1] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Algebra.lean ====
/-
  The one algebraic law that joins the two programs, over the real numbers and abstract finite index types.

  For a matrix `a : N → D → ℝ` write `w i j = ∑ d, a i d * a j d` (the Gram matrix of the rows) and
  `r i = ∑ j, w i j` (its row sums).  Normalising row `i` of `w` by `r i` and then multiplying by `a` gives
  `∑ j, (w i j * (r i)⁻¹) * a j e`; since the normalisation is linear this is
  `(∑ d, a i d * g d e) * (∑ d, a i d * k d)⁻¹` with `g d e = ∑ n, a n d * a n e` (the Gram matrix of the
  columns) and `k d = ∑ n, a n d` (the column sums): both numerators are `∑ j ∑ d, a i d * a j d * a j e`
  and both denominators are `∑ j ∑ d, a i d * a j d`.
-/
import Mathlib

namespace Cert.Algebra

open Finset

variable {N D : Type} [Fintype N] [Fintype D]

/-- The row sum of the rows' Gram matrix is the row against the column sums. -/
theorem rowsum_eq (a : N → D → ℝ) (i : N) :
    (∑ d, a i d * ∑ n, a n d) = ∑ j, ∑ d, a i d * a j d := by
  simp only [Finset.mul_sum]
  exact Finset.sum_comm

/-- The row of the rows' Gram matrix against a column of `a` is the row of `a` against the columns' Gram matrix. -/
theorem numer_eq (a : N → D → ℝ) (i : N) (e : D) :
    (∑ d, a i d * ∑ n, a n d * a n e) = ∑ j, (∑ d, a i d * a j d) * a j e := by
  simp only [Finset.mul_sum, Finset.sum_mul]
  rw [Finset.sum_comm]
  refine Finset.sum_congr rfl fun j _ => Finset.sum_congr rfl fun d _ => ?_
  ring

/-- Normalise-then-multiply equals multiply-then-normalise, over the reals. -/
theorem normalise_eq (a : N → D → ℝ) (i : N) (e : D) :
    (∑ j, ((∑ d, a i d * a j d) * (∑ j', ∑ d, a i d * a j' d)⁻¹) * a j e)
      = (∑ d, a i d * ∑ n, a n d * a n e) * (∑ d, a i d * ∑ n, a n d)⁻¹ := by
  rw [rowsum_eq, numer_eq, Finset.sum_mul]
  refine Finset.sum_congr rfl fun j _ => ?_
  ring

end Cert.Algebra
-- ==== Proof.LibERealSum.lean ====
/-
  The coercion of the reals into the extended reals commutes with finite sums.
-/
import Mathlib.Data.EReal.Operations
import Mathlib.Algebra.BigOperators.Group.Finset.Basic

open scoped BigOperators

namespace Cert.Lib

/-- The coercion `ℝ → EReal` of a finite sum of reals is the sum of the coercions: the coercion is additive
    (`EReal.coe_add`) and sends `0` to `0`, so the statement follows by induction on the index set. -/
theorem EReal_coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.Lib
-- ==== Proof.Bridge.lean ====
/-
  The reference's result, entry by entry, is the kernel's quotient.

  Write `x` for the [8192, 64] input.  The reference forms the Gram matrix of the rows `w (i, j) = Σ d, x (i, d) · x (j, d)`,
  its row sums `r i = 0 + Σ j, w (i, j)`, the normalised matrix `w (i, j) / r i`, and multiplies by `x`:
  its entry `(p, q)` is `Σ k, (w (p, k) / r p) · x (k, q)`.  The kernel's entry `(p, q)` is the quotient `G` below of
  `Σ d, x (p, d) · g (d, q)` by `Σ d, x (p, d) · s d`, with `g (d, q) = Σ n, x (n, d) · x (n, q)` the Gram matrix of the
  columns and `s d = Σ n, x (n, d)` the column sums.

  When every entry of `x` is a real number and `r p ≠ 0`, both are the same real number: the quotient by a nonzero
  real is the product with its inverse, which moves out of the finite sum, and the two numerators and the two
  denominators agree after exchanging the order of summation (the law over the reals, proved apart).  Without
  `r p ≠ 0` the two differ on the extended reals, which is why the hypothesis is there.
-/
import proofs.«151838_j63376537420540_2_alg».proof.Proof.Gen.ReferenceIdeal.Read
import proofs.«151838_j63376537420540_2_alg».proof.Proof.Algebra
import proofs.«151838_j63376537420540_2_alg».proof.Proof.LibERealSum
import Idealize.ShloMosaic.Lib.ValueIdx
import Idealize.ShloMosaic.PureOps.Ideal.Laws

noncomputable section

open Idealize.ShloMosaic Idealize.ShloMosaic.ValueIdx

namespace Cert.Bridge

/-- The kernel's result as one function of the input array: at `(p, q)` the row `p` against column `q` of the
    columns' Gram matrix, divided by the row `p` against the column sums. -/
def G (x : (⟨2, ![8192, 64]⟩ : Shape).Idx → EReal) (i : (⟨2, ![8192, 64]⟩ : Shape).Idx) : EReal :=
  Ideal.div (∑ d : Fin 64, x (ix2 (i 0) d) * ∑ n : Fin 8192, x (ix2 n d) * x (ix2 n (i 1)))
    (∑ d : Fin 64, x (ix2 (i 0) d) * ∑ n : Fin 8192, x (ix2 n d))

/-- The law on the extended reals, for a real matrix `a` with a nonzero row sum at row `p`. -/
theorem normalise_coe {N D : Type} [Fintype N] [Fintype D] (a : N → D → ℝ) (p : N) (q : D)
    (hr : (∑ j, ∑ d, a p d * a j d) ≠ 0) :
    (∑ k, Ideal.div (∑ d, ((a p d : ℝ) : EReal) * ((a k d : ℝ) : EReal))
        (0 + ∑ j, ∑ d, ((a p d : ℝ) : EReal) * ((a j d : ℝ) : EReal)) * ((a k q : ℝ) : EReal))
      = Ideal.div (∑ d, ((a p d : ℝ) : EReal) * ∑ n, ((a n d : ℝ) : EReal) * ((a n q : ℝ) : EReal))
          (∑ d, ((a p d : ℝ) : EReal) * ∑ n, ((a n d : ℝ) : EReal)) := by
  have hr' : (∑ d, a p d * ∑ n, a n d) ≠ 0 := by rw [Cert.Algebra.rowsum_eq]; exact hr
  simp only [zero_add, ← EReal.coe_mul, ← Cert.Lib.EReal_coe_finset_sum]
  rw [Ideal.div_coe hr']
  simp only [Ideal.div_coe hr, ← EReal.coe_mul, ← Cert.Lib.EReal_coe_finset_sum]
  refine congrArg _ ?_
  simp only [one_div]
  exact Cert.Algebra.normalise_eq a p q

open Cert.ReferenceIdeal Cert.ReferenceIdeal.Read

/-- The rows' Gram matrix at `(p, k)`. -/
theorem gram_rows_apply (x : FVec Ideal S8192x64 .f32) (p k : Fin 8192) :
    val_main_v0 (F := Ideal) x (ix2 p k) = ∑ d : Fin 64, x (ix2 p d) * x (ix2 k d) := by
  rw [val_main_v0_apply]
  refine Finset.sum_congr rfl fun d _ => ?_
  have el : lidx_main_v0 (ix2 p k) d = ix2 p d := funext fun a => by match a with | ⟨0, _⟩ => rfl | ⟨1, _⟩ => rfl
  have er : ridx_main_v0 (ix2 p k) d = ix2 k d := funext fun a => by match a with | ⟨0, _⟩ => rfl | ⟨1, _⟩ => rfl
  rw [el, er]

/-- Its row sum at `p`. -/
theorem rowsum_apply (x : FVec Ideal S8192x64 .f32) (p : Fin 8192) :
    val_main_v1 (F := Ideal) x (ix1 p) = 0 + ∑ k : Fin 8192, ∑ d : Fin 64, x (ix2 p d) * x (ix2 k d) := by
  rw [val_main_v1_apply, val_main_cst_apply]
  show Ideal.ofBits .f32 0x00000000#32 + _ = _
  rw [Ideal.ofBits_zero_f32]
  refine congrArg (0 + ·) (Finset.sum_congr rfl fun k _ => ?_)
  have e : idx_main_v1 (ix1 p) k = ix2 p k := funext fun a => by match a with | ⟨0, _⟩ => rfl | ⟨1, _⟩ => rfl
  rw [e, gram_rows_apply]

/-- The reference's result at `(p, q)`. -/
theorem ref_apply (x : FVec Ideal S8192x64 .f32) (p : Fin 8192) (q : Fin 64) :
    val_main_v5 (F := Ideal) x (ix2 p q)
      = ∑ k : Fin 8192, Ideal.div (∑ d : Fin 64, x (ix2 p d) * x (ix2 k d))
          (0 + ∑ j : Fin 8192, ∑ d : Fin 64, x (ix2 p d) * x (ix2 j d)) * x (ix2 k q) := by
  rw [val_main_v5_apply]
  refine Finset.sum_congr rfl fun k _ => ?_
  have el : lidx_main_v5 (ix2 p q) k = ix2 p k := funext fun a => by match a with | ⟨0, _⟩ => rfl | ⟨1, _⟩ => rfl
  have er : ridx_main_v5 (ix2 p q) k = ix2 k q := funext fun a => by match a with | ⟨0, _⟩ => rfl | ⟨1, _⟩ => rfl
  have e3 : idx_main_v2 (idx_main_v3 (ix2 p k)) = ix1 p := funext fun a => by match a with | ⟨0, _⟩ => rfl
  rw [el, er, val_main_v4_apply, val_main_v3_apply, val_main_v2_apply, e3, rowsum_apply, gram_rows_apply]
  rfl

/-- The reference's result is the kernel's quotient, when the input is real and no row sum vanishes. -/
theorem ref_eq_G (x : FVec Ideal S8192x64 .f32) (hfin : ∀ j : S8192x64.Idx, ∃ r : ℝ, x j = (r : EReal))
    (hne : ∀ i : S8192.Idx, val_main_v1 (F := Ideal) x i ≠ 0) :
    val_main_v5 (F := Ideal) x = G x := by
  choose a ha using hfin
  obtain rfl : x = fun j => ((a j : ℝ) : EReal) := funext ha
  funext i
  obtain ⟨p, q, rfl⟩ : ∃ (p : Fin 8192) (q : Fin 64), i = ix2 p q := ⟨i 0, i 1, eq_ix2 i⟩
  have hp := hne (ix1 p)
  rw [rowsum_apply] at hp
  have hr : (∑ j : Fin 8192, ∑ d : Fin 64, a (ix2 p d) * a (ix2 j d)) ≠ 0 := by
    intro h0
    apply hp
    simp only [zero_add, ← EReal.coe_mul, ← Cert.Lib.EReal_coe_finset_sum]
    rw [h0]; rfl
  rw [ref_apply]
  exact normalise_coe (fun n d => a (ix2 n d)) p q hr

end Cert.Bridge

end
-- ==== Proof.PreDecode.lean ====
/-
  What the precondition says of the input array, over the extended reals.

  The precondition is the conjunction of two `all`s.  The first, `|x| < +∞` at every entry, says every entry is a
  real number.  The second says that no row sum of the Gram matrix of the rows, `r i = 0 + Σ j, Σ d, x (i, d) · x (j, d)`
  — the very number the reference divides row `i` by — is zero.  Both are read off by evaluating the printed
  function at its one output index: a conjunction of bits is one exactly when both are, and an `all` that is one
  had a one at every entry.
-/
import proofs.«151838_j63376537420540_2_alg».proof.Proof.Gen.Pre_finite_inputs
import proofs.«151838_j63376537420540_2_alg».proof.Proof.Gen.ReferenceIdeal.Read
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.PreDecode

open Cert.Pre_finite_inputs

instance : Subsingleton S_.Idx := ⟨fun a b => funext fun d => d.elim0⟩

/-- An extended real whose absolute value is below the f32 infinity word's value is a real number. -/
theorem real_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- An extended real that compares unequal to the f32 zero word's value is not zero. -/
theorem ne_zero_of_une (a : EReal) (h : Ideal.cmp .une a (Ideal.ofBits .f32 0x00000000#32) = 1#1) : a ≠ 0 := by
  rw [Ideal.ofBits_zero_f32] at h
  intro hc
  rw [hc] at h
  simp [Ideal.cmp] at h

/-- The precondition at the ideal values: every entry of the input is real, and every row sum the reference divides
    by is nonzero. -/
theorem decode (x : FVec Ideal S8192x64 .f32) (h : fn (F := Ideal) x = fun _ => 1#1) :
    (∀ j : S8192x64.Idx, ∃ r : ℝ, x j = (r : EReal))
      ∧ (∀ i : Cert.ReferenceIdeal.S8192.Idx, Cert.ReferenceIdeal.Read.val_main_v1 (F := Ideal) x i ≠ 0) := by
  have h0 := congrFun h ValueIdx.ix0
  unfold fn at h0
  dsimp only at h0
  obtain ⟨hfin, hne⟩ := IntOp.andi_eq_one.1 h0
  refine ⟨fun j => ?_, fun i => ?_⟩
  · have hj := Host.reduce_andi_all _ _ _ _ _ hfin j
    exact real_of_abs_lt_inf (x j) hj
  · have hi := Host.reduce_andi_all _ _ _ _ _ hne i
    exact ne_zero_of_une _ hi

end Cert.PreDecode

end
-- ==== Proof.Pieces.lean ====
/-
  What one run of the kernel body leaves behind, as values.

  The body runs in two ways.  At the first grid point it loads the whole resident [8192, 64] array `x`, stores a
  [64, 64] payload of it (the Gram matrix of its columns) into the first scratch buffer and a [1, 64] payload (its
  column sums) into the second, reads both back, and stores into the output block a payload of the point's 1024 rows
  of `x` and of those two read-backs.  At every later point it stores nothing into the scratch buffers and computes
  the same output payload from what they already hold.  Each lemma below reads one of these results back as the
  payload applied to the buffers' contents: the one covering store leaves its payload, a load of a whole buffer reads
  its contents, and a load of what a covering store just wrote reads that store's payload.
-/
import proofs.«151838_j63376537420540_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl

/-- The 1024 rows of the resident [8192, 64] array that grid point `i` works on: rows `1024·i … 1024·i + 1023`,
    all 64 columns (the offsets are the ones the body computes from the grid coordinate). -/
def tile (i : grid0.Coords) (x : Vec F S8192x64 .f32) : Vec F S1024x64 .f32 :=
  View.ld x (Rect.unit (s := S8192x64) (k0_off1 i) S1024x64.size (k0_off1_inb i))

/-- At the first grid point the [64, 64] scratch ends holding the first store's payload of the whole resident array. -/
theorem gram_first (c : Dev nD) (i : grid0.Coords) (a1 : Memref sig .tc .vmem S8192x64 .f32) (h1 : a1.IsWhole)
    (a2 : Memref sig .tc .vmem S1024x64 .f32) (h2 : a2.IsWhole) (a3 : Memref sig .tc .vmem S64x64 .f32) (h3 : a3.IsWhole)
    (a4 : Memref sig .tc .vmem S1x64 .f32) (h4 : a4.IsWhole) (hc : cond0_0 i) (x : Vec F S8192x64 .f32) :
    sout0_A_0 c i a1 h1 a2 h2 a3 h3 a4 h4 hc x = k0_pay1 x := by
  unfold sout0_A_0
  rw [View.read_writes_eq_canon _ _ _ (scover0_A_0 c i a1 h1 a2 h2 a3 h3 a4 h4 hc x)]
  unfold kernelRun0_A
  dsimp only
  sl_unfold_words
  rw [View.canon_unit_zero zeros2]
  simp only [View.readAt_eq_ld, h1.read_unread, View.ld_unit_zero (S := S8192x64) zeros2]

/-- At the first grid point the [1, 64] scratch ends holding the second store's payload of the whole resident array. -/
theorem ksum_first (c : Dev nD) (i : grid0.Coords) (a1 : Memref sig .tc .vmem S8192x64 .f32) (h1 : a1.IsWhole)
    (a2 : Memref sig .tc .vmem S1024x64 .f32) (h2 : a2.IsWhole) (a3 : Memref sig .tc .vmem S64x64 .f32) (h3 : a3.IsWhole)
    (a4 : Memref sig .tc .vmem S1x64 .f32) (h4 : a4.IsWhole) (hc : cond0_0 i) (x : Vec F S8192x64 .f32) :
    sout0_A_1 c i a1 h1 a2 h2 a3 h3 a4 h4 hc x = k0_pay2 x := by
  unfold sout0_A_1
  rw [View.read_writes_eq_canon _ _ _ (scover0_A_1 c i a1 h1 a2 h2 a3 h3 a4 h4 hc x)]
  unfold kernelRun0_A
  dsimp only
  sl_unfold_words
  rw [View.canon_unit_zero zeros2]
  simp only [View.readAt_eq_ld, h1.read_unread, View.ld_unit_zero (S := S8192x64) zeros2]

/-- At the first grid point the output block is the last store's payload of the point's rows and of the two
    scratch contents just written (the body reads both back after storing them). -/
theorem out_first (c : Dev nD) (i : grid0.Coords) (a1 : Memref sig .tc .vmem S8192x64 .f32) (h1 : a1.IsWhole)
    (a2 : Memref sig .tc .vmem S1024x64 .f32) (h2 : a2.IsWhole) (a3 : Memref sig .tc .vmem S64x64 .f32) (h3 : a3.IsWhole)
    (a4 : Memref sig .tc .vmem S1x64 .f32) (h4 : a4.IsWhole) (hc : cond0_0 i) (x : Vec F S8192x64 .f32) :
    out0_A_1 c i a1 h1 a2 h2 a3 h3 a4 h4 hc x = k0_pay3 (tile i x) (k0_pay1 x) (k0_pay2 x) := by
  unfold out0_A_1
  rw [View.read_writes_eq_canon _ _ _ (cover0_A_1 c i a1 h1 a2 h2 a3 h3 a4 h4 hc x)]
  unfold kernelRun0_A
  dsimp only
  sl_unfold_words
  rw [View.canon_unit_zero zeros2, View.readCov_unit_zero (S := S64x64) _ zeros2, View.readCov_unit_zero (S := S1x64) _ zeros2]
  simp only [View.readAt_eq_ld, h1.read_unread, View.ld_unit_zero (S := S8192x64) zeros2]
  rfl

/-- At a later grid point the output block is the same payload of the point's rows and of what the two scratch
    buffers held when the point began. -/
theorem out_later (c : Dev nD) (i : grid0.Coords) (a1 : Memref sig .tc .vmem S8192x64 .f32) (h1 : a1.IsWhole)
    (a2 : Memref sig .tc .vmem S1024x64 .f32) (h2 : a2.IsWhole) (a3 : Memref sig .tc .vmem S64x64 .f32) (h3 : a3.IsWhole)
    (a4 : Memref sig .tc .vmem S1x64 .f32) (h4 : a4.IsWhole) (hc : ¬cond0_0 i) (x : Vec F S8192x64 .f32)
    (xs0 : Vec F S64x64 .f32) (xs1 : Vec F S1x64 .f32) :
    out0_B_1 c i a1 h1 a2 h2 a3 h3 a4 h4 hc x xs0 xs1 = k0_pay3 (tile i x) xs0 xs1 := by
  unfold out0_B_1
  rw [View.read_writes_eq_canon _ _ _ (cover0_B_1 c i a1 h1 a2 h2 a3 h3 a4 h4 hc x xs0 xs1)]
  unfold kernelRun0_B
  dsimp only
  rw [View.canon_unit_zero zeros2]
  simp only [View.readAt_eq_ld, h1.read_unread, h3.read_unread, h4.read_unread, View.ld_unit_zero (S := S64x64) zeros2,
    View.ld_unit_zero (S := S1x64) zeros2]
  rfl

end Cert.KernelIdeal.Pieces
end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibColumns.lean ====
/-
  General lemmas: a sum along the FIRST axis of a matrix, and a 1 × 1 matrix broadcast over a matrix, read at an index.

  * `colSum_ab_apply`: at the ideal values the f32 sum of an `[a, b]` matrix over its rows (a
    `vector.multi_reduction <add>` over axis 0 into `[b]`) is, at column `q`, `Σ k, v (k, q)`;
  * `broadcastTo_11_ab_apply`: a `[1, 1]` matrix broadcast to `[a, b]` reads its one entry everywhere;
  * `sqrt_apply`: the vector square root acts entry by entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- At the ideal values an f32 sum of an `[a, b]` matrix over axis 0 (from the sum's neutral word) is, at column
    `q`, the sum over the column's entries. -/
theorem colSum_ab_apply {a b : ℕ} (v : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun ax => Fin.ext (by
      match ax with
      | ⟨0, _⟩ => rfl
      | ⟨1, _⟩ => rfl)))

/-- A `[1, 1]` matrix broadcast to `[a, b]` reads, at every `(p, c)`, its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The vector square root at an index, at the ideal values. -/
theorem sqrt_apply {s : Shape} {φ : FTy} (x : FVec Ideal s φ) (i : s.Idx) : sqrt x i = Ideal.sqrt (x i) := rfl

end Idealize.ShloMosaic.ValueIdx

end
-- ==== Proof.LibLaneMax.lean ====
/-
  General lemmas: a maximum along the last axis of a matrix, and a one-row matrix broadcast over rows, read at an index.

  * `laneMax_ab_apply`: at the ideal values the f32 lane maximum of an `[a, b]` matrix (a
    `vector.multi_reduction <maximumf>` over axis 1 into `[a]`, from the maximum's neutral word) is, at row `p`, the
    fold of `max` from that word's value over the row's entries `v (p, k)`.
  * `broadcastTo_1b_ab_apply`: a one-row matrix `[1, b]` broadcast to `[a, b]` reads, at `(p, q)`, the row's entry `q`.
  * `fold_max_absorb`: the value a fold of `max` starts from is below the fold, so taking `max` with it again changes
    nothing.
-/
import Idealize.ShloMosaic.Lib.Pipeline.Value
import Idealize.ShloMosaic.Lib.ValueIdx
import Idealize.ShloMosaic.PureOps.Ideal.Laws

noncomputable section

namespace Idealize.ShloMosaic.ValueIdx

open Idealize.ShloMosaic

/-- A one-row matrix broadcast over `a` rows reads, at (p, q), the row's entry q. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- At the ideal values an f32 lane maximum of an `[a, b]` matrix is, at row `p`, the fold of `max` over the row's
    entries from the accumulator word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (congrArg (fun f => (Finset.univ : Finset (Fin b)).fold max (Ideal.ofBits .f32 acc) f)
      (funext fun k => congrArg v (funext fun ax => Fin.ext (by
        match ax with
        | ⟨0, _⟩ => rfl
        | ⟨1, _⟩ => rfl))))

/-- A fold of `max` absorbs the value it starts from. -/
theorem fold_max_absorb {ι : Type} (s : Finset ι) (b : EReal) (f : ι → EReal) :
    max b (s.fold max b f) = s.fold max b f :=
  max_eq_right (Finset.le_fold_max b |>.mpr (Or.inl le_rfl))

end Idealize.ShloMosaic.ValueIdx

end
-- ==== Proof.Payload.lean ====
/-
  The kernel body's three stored values read entry by entry, over the extended reals.

  Write `x` for the resident [8192, 64] array.  At the ideal values a change of float format is the identity, a
  matrix product into a zero accumulator is the plain sum over the contracted axis, and a sum along an axis from the
  zero word is the plain sum, so:
  * the [64, 64] value stored first is the Gram matrix of the columns, `g (d, e) = Σ n, x (n, d) · x (n, e)`;
  * the [1, 64] value stored second is the row of column sums, `k (0, d) = Σ n, x (n, d)`;
  * the [1024, 64] output value, from a row tile `v`, a [64, 64] matrix `g` and a [1, 64] row `k`, is at `(p, q)`
    the quotient of `Σ d, v (p, d) · g (d, q)` by `Σ d, v (p, d) · k (0, d)`.
-/
import proofs.«151838_j63376537420540_2_alg».proof.Proof.Gen.KernelIdeal.Skeleton
import proofs.«151838_j63376537420540_2_alg».proof.Proof.LibKeepdims
import proofs.«151838_j63376537420540_2_alg».proof.Proof.LibColumns
import proofs.«151838_j63376537420540_2_alg».proof.Proof.LibLaneMax
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The non-contracted coordinates of the two products' operand indices (the contracted ones are the library's). -/
theorem rows_lhs_1 (i : S64x64.Idx) (q : dot_S8192x64_S8192x64_S64x64_0_0_1_1_n_n.contr.Idx) : (dot_S8192x64_S8192x64_S64x64_0_0_1_1_n_n.lhsIdx i q 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
theorem rows_rhs_1 (i : S64x64.Idx) (q : dot_S8192x64_S8192x64_S64x64_0_0_1_1_n_n.contr.Idx) : (dot_S8192x64_S8192x64_S64x64_0_0_1_1_n_n.rhsIdx i q 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl
theorem tile_lhs_0 (i : S1024x64.Idx) (q : dot_S1024x64_S64x64_S1024x64_1_0_0_1_n_n.contr.Idx) : (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl
theorem tile_rhs_1 (i : S1024x64.Idx) (q : dot_S1024x64_S64x64_S1024x64_1_0_0_1_n_n.contr.Idx) : (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The product that contracts the ROW axis of both operands: entry `(d, e)` sums over the 8192 rows. -/
theorem matmul_rows_apply (l r : FVec Ideal S8192x64 .bf16) (d e : Fin 64) :
    matmul dot_S8192x64_S8192x64_S64x64_0_0_1_1_n_n none l r (constant S64x64 .f32 0x00000000#32) (ix2 d e)
      = ∑ n : Fin 8192, l (ix2 n d) * r (ix2 n e) := by
  refine (Ideal.matmul_constant_zero_apply dot_S8192x64_S8192x64_S64x64_0_0_1_1_n_n none l r (ix2 d e)).trans ?_
  rw [← Equiv.sum_comp (contrEquiv1 dot_S8192x64_S8192x64_S64x64_0_0_1_1_n_n 8192 rfl rfl).symm]
  refine Finset.sum_congr rfl fun n _ => ?_
  have hk := contrEquiv1_symm_val dot_S8192x64_S8192x64_S64x64_0_0_1_1_n_n 8192 rfl rfl n
  have el : dot_S8192x64_S8192x64_S64x64_0_0_1_1_n_n.lhsIdx (ix2 d e) ((contrEquiv1 dot_S8192x64_S8192x64_S64x64_0_0_1_1_n_n 8192 rfl rfl).symm n) = ix2 n d :=
    funext fun a => Fin.ext (by
      match a with
      | ⟨0, _⟩ => exact (dot_S8192x64_S8192x64_S64x64_0_0_1_1_n_n.lhsIdx_val_of_single rfl _ _).trans hk
      | ⟨1, _⟩ => exact rows_lhs_1 _ _)
  have er : dot_S8192x64_S8192x64_S64x64_0_0_1_1_n_n.rhsIdx (ix2 d e) ((contrEquiv1 dot_S8192x64_S8192x64_S64x64_0_0_1_1_n_n 8192 rfl rfl).symm n) = ix2 n e :=
    funext fun a => Fin.ext (by
      match a with
      | ⟨0, _⟩ => exact (dot_S8192x64_S8192x64_S64x64_0_0_1_1_n_n.rhsIdx_val_of_single rfl _ _).trans hk
      | ⟨1, _⟩ => exact rows_rhs_1 _ _)
  rw [el, er]

/-- The ordinary product of a [1024, 64] tile with a [64, 64] matrix: entry `(p, q)` sums over the 64 columns. -/
theorem matmul_tile_apply (l : FVec Ideal S1024x64 .bf16) (r : FVec Ideal S64x64 .bf16) (p : Fin 1024) (q : Fin 64) :
    matmul dot_S1024x64_S64x64_S1024x64_1_0_0_1_n_n none l r (constant S1024x64 .f32 0x00000000#32) (ix2 p q)
      = ∑ d : Fin 64, l (ix2 p d) * r (ix2 d q) := by
  refine (Ideal.matmul_constant_zero_apply dot_S1024x64_S64x64_S1024x64_1_0_0_1_n_n none l r (ix2 p q)).trans ?_
  rw [← Equiv.sum_comp (contrEquiv1 dot_S1024x64_S64x64_S1024x64_1_0_0_1_n_n 64 rfl rfl).symm]
  refine Finset.sum_congr rfl fun n _ => ?_
  have hk := contrEquiv1_symm_val dot_S1024x64_S64x64_S1024x64_1_0_0_1_n_n 64 rfl rfl n
  have el : dot_S1024x64_S64x64_S1024x64_1_0_0_1_n_n.lhsIdx (ix2 p q) ((contrEquiv1 dot_S1024x64_S64x64_S1024x64_1_0_0_1_n_n 64 rfl rfl).symm n) = ix2 p n :=
    funext fun a => Fin.ext (by
      match a with
      | ⟨0, _⟩ => exact tile_lhs_0 _ _
      | ⟨1, _⟩ => exact (dot_S1024x64_S64x64_S1024x64_1_0_0_1_n_n.lhsIdx_val_of_single rfl _ _).trans hk)
  have er : dot_S1024x64_S64x64_S1024x64_1_0_0_1_n_n.rhsIdx (ix2 p q) ((contrEquiv1 dot_S1024x64_S64x64_S1024x64_1_0_0_1_n_n 64 rfl rfl).symm n) = ix2 n q :=
    funext fun a => Fin.ext (by
      match a with
      | ⟨0, _⟩ => exact (dot_S1024x64_S64x64_S1024x64_1_0_0_1_n_n.rhsIdx_val_of_single rfl _ _).trans hk
      | ⟨1, _⟩ => exact tile_rhs_1 _ _)
  rw [el, er]

/-- The first stored value is the Gram matrix of the columns. -/
theorem gram_apply (x : Vec Ideal S8192x64 .f32) (d e : Fin 64) :
    k0_pay1 (F := Ideal) x (ix2 d e) = ∑ n : Fin 8192, x (ix2 n d) * x (ix2 n e) := by
  unfold k0_pay1
  rw [shapeCast_self]
  exact matmul_rows_apply _ _ d e

/-- The second stored value is the row of column sums. -/
theorem ksum_apply (x : Vec Ideal S8192x64 .f32) (u : Fin 1) (d : Fin 64) :
    k0_pay2 (F := Ideal) x (ix2 u d) = ∑ n : Fin 8192, x (ix2 n d) := by
  unfold k0_pay2
  rw [shapeCast_self]
  refine (shapeCast_apply _ _ (ix2 u d) (ix1 d) ?_).trans ?_
  · have hu : u.val = 0 := by omega
    rw [Shape.rowMajor_val_two, Shape.rowMajor_val_one]
    show d.val = u.val * 64 + d.val
    rw [hu]; omega
  · exact colSum_ab_apply x _ _ _ _ d

/-- The output value at `(p, q)`: the tile's row against the matrix's column, divided by the tile's row against the row `k`. -/
theorem out_apply (v : Vec Ideal S1024x64 .f32) (g : Vec Ideal S64x64 .f32) (k : Vec Ideal S1x64 .f32) (p : Fin 1024) (q : Fin 64) :
    k0_pay3 (F := Ideal) v g k (ix2 p q)
      = Ideal.div (∑ d : Fin 64, v (ix2 p d) * g (ix2 d q)) (∑ d : Fin 64, v (ix2 p d) * k (ix2 (0 : Fin 1) d)) := by
  unfold k0_pay3
  rw [divf_apply]
  congr 1
  · exact matmul_tile_apply _ _ p q
  · rw [broadcastTo_a1_ab_apply, shapeCast_a_a1_apply]
    refine (laneSum_ab_apply (a := 1024) (b := 64) _ _ _ _ _ p).trans ?_
    refine Finset.sum_congr rfl fun d _ => ?_
    show v (ix2 p d) * broadcastTo S1024x64 k broadcasts_S1x64_S1024x64 (ix2 p d) = _
    exact congrArg (v (ix2 p d) * ·) (broadcastTo_1b_ab_apply (a := 1024) (b := 64) k _ p d)

end Cert.KernelIdeal.Payload

end
-- ==== Proof.KernelValue.lean ====
/-
  The kernel's run, read as one function of the input array (at the ideal values).

  The input window's block is the whole [8192, 64] array `x` at every grid point.  After the first point the two
  scratch buffers hold the Gram matrix of `x`'s columns and `x`'s column sums, and no later point stores into them, so
  by induction on the point they hold these after every point; hence the output block after point `t` is the stored
  quotient computed from rows `1024·t … 1024·t + 1023` of `x` and those two values.  Entry `(p, q)` of that block is the
  function `G` of the bridge at `(1024·t + p, q)`: the block written back at point `t` is block `t` of `G x`.  The
  eight blocks tile the result array (row `r` lies in block `r / 1024`), so the array ends holding `G x`.
-/
import proofs.«151838_j63376537420540_2_alg».proof.Proof.Gen.KernelIdeal.Value
import proofs.«151838_j63376537420540_2_alg».proof.Proof.Pieces
import proofs.«151838_j63376537420540_2_alg».proof.Proof.Payload
import proofs.«151838_j63376537420540_2_alg».proof.Proof.Bridge
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Pieces

/-! ## The scratch contents and the output block after every point (any float instance) -/

section AnyInstance

variable {F : FTy → Type} [FloatOps F]
variable (m : (ℓ : Loc nD τ sig) → Buf (Elt F) ℓ)

/-- The input array as launched. -/
abbrev X (c : Dev nD) : Vec F S8192x64 .f32 := m ((c : Thread nD τ).loc main_arg0)

/-- The input window's block index is (0, 0) at every point. -/
theorem index_in : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- So the block the body finds in the input window's staging buffer is the whole input array, at every point. -/
theorem iblk_in (c : Dev nD) (t : Fin cfg0.N) : (iblk m c 0 t : Vec F S8192x64 .f32) = X m c := by
  obtain ⟨e0, e1⟩ := index_in t
  funext j
  unfold iblk
  rw [View.read_apply]
  show V m c main_arg0 _ = m ((c : Thread nD τ).loc main_arg0) _
  unfold V
  congr 1
  funext a
  apply Fin.ext
  match a with
  | ⟨0, _⟩ => show win0_0.index t (0 : Fin 2) * 8192 + 1 * (j 0).val = (j 0).val; rw [e0]; omega
  | ⟨1, _⟩ => show win0_0.index t (1 : Fin 2) * 64 + 1 * (j 1).val = (j 1).val; rw [e1]; omega

/-- After every point: the output's staging buffer holds the stored quotient of the point's rows, and the two scratch
    buffers hold the first point's two stored values of the whole input — by induction on the point. -/
theorem outsAt_eq (c : Dev nD) : ∀ (n : ℕ) (h : n < cfg0.N),
    outsAt0 m c n h = (k0_pay3 (tile (grid0.coords ⟨n, h⟩) (X m c)) (k0_pay1 (X m c)) (k0_pay2 (X m c)), k0_pay1 (X m c), k0_pay2 (X m c))
  | 0, h => by
    rw [outsAt0_A m c ⟨0, h⟩ rfl, out_first, gram_first, ksum_first, iblk_in]
  | n + 1, h => by
    have hN : cfg0.N = 8 := N_0
    have hB : ¬(⟨n + 1, h⟩ : Fin cfg0.N).val % 8 = 0 := by dsimp only; omega
    rw [outsAt0_B m c ⟨n + 1, h⟩ hB, out_later]
    unfold sout0_B_0 sout0_B_1
    rw [iblk_in]
    show (k0_pay3 _ (outsAt0 m c n _).2.1 (outsAt0 m c n _).2.2, (outsAt0 m c n _).2.1, (outsAt0 m c n _).2.2) = _
    rw [outsAt_eq c n]

end AnyInstance

/-! ## At the ideal values: the block written back at a point is a block of `G` -/

open Cert.KernelIdeal.Payload Cert.Bridge

/-- The stored quotient at an entry `y` of the block, for the rows the point loads, is `G` at the array entry `z` whose
    row is the point's first row plus `y`'s and whose column is `y`'s. -/
theorem point_value (x : Vec Ideal S8192x64 .f32) (i : grid0.Coords) (y : S1024x64.Idx) (z : S8192x64.Idx)
    (h0 : (z 0).val = k0_off1 i 0 + (y 0).val) (h1 : (z 1).val = (y 1).val) (hcol : k0_off1 i 1 = 0) :
    k0_pay3 (F := Ideal) (tile i x) (k0_pay1 x) (k0_pay2 x) y = G x z := by
  obtain ⟨p, q, rfl⟩ : ∃ (p : Fin 1024) (q : Fin 64), y = ix2 p q := ⟨y 0, y 1, eq_ix2 y⟩
  obtain ⟨r, q', rfl⟩ : ∃ (r : Fin 8192) (q' : Fin 64), z = ix2 r q' := ⟨z 0, z 1, eq_ix2 z⟩
  obtain rfl : q' = q := Fin.ext h1
  have hrow : ∀ d : Fin 64, tile i x (ix2 p d) = x (ix2 r d) := fun d => by
    unfold tile
    show x _ = x _
    refine congrArg x (funext fun a => Fin.ext ?_)
    match a with
    | ⟨0, _⟩ => show k0_off1 i 0 + 1 * p.val = r.val; have : r.val = k0_off1 i 0 + p.val := h0; omega
    | ⟨1, _⟩ => show k0_off1 i 1 + 1 * d.val = d.val; rw [hcol]; omega
  rw [out_apply]
  unfold G
  congr 1
  · refine Finset.sum_congr rfl fun d _ => ?_
    rw [hrow d, gram_apply]
  · refine Finset.sum_congr rfl fun d _ => ?_
    rw [hrow d, ksum_apply]

variable (m : (ℓ : Loc nD τ sig) → Buf (Elt Ideal) ℓ) (ρ : Dev nD → PrngReg)

/-- The output window's block index at point `t` is (t, 0), and the rows the body loads there start at row `1024·t`. -/
theorem index_out : ∀ t : Fin cfg0.N, win0_1.index t (0 : Fin 2) * 1024 = k0_off1 (grid0.coords t) 0
    ∧ win0_1.index t (1 : Fin 2) = 0 ∧ k0_off1 (grid0.coords t) 1 = 0 ∧ win0_1.index t (0 : Fin 2) = t.val :=
  (by decide +kernel : ∀ t : Fin grid0.N, win0_1.index t (0 : Fin 2) * 1024 = k0_off1 (grid0.coords t) 0
    ∧ win0_1.index t (1 : Fin 2) = 0 ∧ k0_off1 (grid0.coords t) 1 = 0 ∧ win0_1.index t (0 : Fin 2) = t.val)

/-- What point `t` writes back is block `t` of `G` of the input array. -/
theorem flushed_eq (c : Dev nD) (t : Fin cfg0.N) :
    (dats m 0 c).flushed 1 t = ((cfg0.win 1).blk t).view.read (Elt Ideal) (G (X m c)) := by
  obtain ⟨e0, e1, e2, -⟩ := index_out t
  rw [Cert.KernelIdeal.Value.flushed1, outsAt_eq]
  funext j
  show k0_pay3 (F := Ideal) (tile (grid0.coords t) (X m c)) (k0_pay1 (X m c)) (k0_pay2 (X m c)) j
    = G (X m c) (((cfg0.win 1).blk t).view.emb j)
  refine point_value (X m c) (grid0.coords t) j _ ?_ ?_ e2
  · show win0_1.index t (0 : Fin 2) * 1024 + 1 * (j 0).val = k0_off1 (grid0.coords t) 0 + (j 0).val
    rw [e0]; omega
  · show win0_1.index t (1 : Fin 2) * 64 + 1 * (j 1).val = (j 1).val
    rw [e1]; omega

/-- An entry of the result array is in point `t`'s block iff each coordinate is in the block's range on its axis. -/
theorem mem_blk (t : Fin cfg0.N) (i : S8192x64.Idx) :
    i ∈ ((cfg0.win 1).blk t).view.set ↔ ∀ a : Fin 2, win0_1.index t a * S1024x64.size a ≤ (i a).val ∧ (i a).val < win0_1.index t a * S1024x64.size a + S1024x64.size a := by
  show i ∈ ((View.whole main_v0).slice (win0_1.rect t)).set ↔ _
  rw [View.set_slice_whole, Rect.mem_set_unit]
  exact Iff.rfl

/-- Every entry of the result array lies in the block of the point `row / 1024`. -/
theorem covered (i : S8192x64.Idx) : ∃ t : Fin cfg0.N, (cfg0.win 1).flush t = true ∧ i ∈ ((cfg0.win 1).blk t).view.set := by
  have hN : cfg0.N = 8 := N_0
  have hi0 : (i 0).val < 8192 := (i 0).isLt
  have hi1 : (i 1).val < 64 := (i 1).isLt
  let t : Fin cfg0.N := ⟨(i 0).val / 1024, by rw [hN]; omega⟩
  obtain ⟨-, e1, -, e3⟩ := index_out t
  have e3' : win0_1.index t (0 : Fin 2) = (i 0).val / 1024 := e3
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; rw [e3']; omega
  | ⟨1, _⟩ => show win0_1.index t (1 : Fin 2) * 64 ≤ (i 1).val ∧ (i 1).val < win0_1.index t (1 : Fin 2) * 64 + 64; rw [e1]; omega

/-- The result array after the run is `G` of the input array. -/
theorem final (c : Dev nD) : (dats m 0 c).arrAt 1 cfg0.N = G (X m c) :=
  (dats m 0 c).arrAt_eq_of_cover 1 (G (X m c)) (fun t _ => flushed_eq m c t) covered

/-- The kernel's run: it terminates with the result array at `G` of the input array and the input unchanged. -/
theorem run : θ_run defs (onTc (τ := τ) (main (F := Ideal))) ⟨m, fun _ => 0, ρ⟩ fun r => ∀ c : Dev nD,
      r.2.mem ((c : Thread nD τ).loc main_v0) = G (X m c)
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.KernelValue

end
-- ==== Proof.lean ====
/-
  The kernel against its reference, over the extended reals.

  The reference takes the input `x` : [8192, 64], forms the Gram matrix of its rows `w = x · xᵀ`, divides every row
  of `w` by that row's sum `r i = Σ j, w (i, j)`, and multiplies the normalised matrix by `x`.  The kernel never forms
  the [8192, 8192] matrix: at its first grid point it stores the Gram matrix of the COLUMNS `g = xᵀ · x` : [64, 64] and
  the column sums `s` : [1, 64] in scratch memory, and at every grid point it writes 1024 rows of
  `(x · g) / (x · sᵀ)`.  Normalising a row is linear, so over the reals the two agree wherever `r i ≠ 0`
  (`Σ j, (w (i, j) / r i) · x (j, e) = (Σ d, x (i, d) · g (d, e)) / (Σ d, x (i, d) · s d)`, both sides being
  `(Σ j Σ d, x (i, d) · x (j, d) · x (j, e)) / r i` and `r i = Σ d, x (i, d) · s d`).  Where a row sum is zero the
  reference divides by zero and the two differ on the extended reals, so the precondition asks, beside finite
  inputs, that no row sum of `w` be zero.

  The parts: the law over the reals (Algebra); the reference's result entry by entry as the kernel's quotient `G`
  (Bridge); what the precondition says of the input (PreDecode); what one run of the body leaves in its buffers
  (Pieces) and those values entry by entry (Payload); the kernel's run read as `G` of the input (KernelValue).  The
  three frames are the generated ones (the reference's is its generated run with the result dropped), and the ideal
  pass rewrote nothing, so the idealization conjunct is trivial.
-/
import proofs.«151838_j63376537420540_2_alg».proof.Defs
import proofs.«151838_j63376537420540_2_alg».proof.Proof.Gen.Kernel
import proofs.«151838_j63376537420540_2_alg».proof.Proof.Gen.Kernel.Skeleton
import proofs.«151838_j63376537420540_2_alg».proof.Proof.Gen.Kernel.Launch
import proofs.«151838_j63376537420540_2_alg».proof.Proof.Gen.Kernel.Points
import proofs.«151838_j63376537420540_2_alg».proof.Proof.Gen.Kernel.Frame
import proofs.«151838_j63376537420540_2_alg».proof.Proof.Gen.KernelIdeal
import proofs.«151838_j63376537420540_2_alg».proof.Proof.Gen.KernelIdeal.Skeleton
import proofs.«151838_j63376537420540_2_alg».proof.Proof.Gen.KernelIdeal.Launch
import proofs.«151838_j63376537420540_2_alg».proof.Proof.Gen.KernelIdeal.Points
import proofs.«151838_j63376537420540_2_alg».proof.Proof.Gen.KernelIdeal.Frame
import proofs.«151838_j63376537420540_2_alg».proof.Proof.Gen.KernelIdeal.Value
import proofs.«151838_j63376537420540_2_alg».proof.Proof.Gen.ReferenceIdeal
import proofs.«151838_j63376537420540_2_alg».proof.Proof.Gen.ReferenceIdeal.Run
import proofs.«151838_j63376537420540_2_alg».proof.Proof.Gen.ReferenceIdeal.Read
import proofs.«151838_j63376537420540_2_alg».proof.Proof.Gen.Pre_finite_inputs
import proofs.«151838_j63376537420540_2_alg».proof.Proof.Bridge
import proofs.«151838_j63376537420540_2_alg».proof.Proof.PreDecode
import proofs.«151838_j63376537420540_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `G` of the (shared) input: the kernel by its run read block by block,
    the reference by its run read entry by entry, the two joined by the law over the reals, which the precondition's
    two halves (real entries, nonzero row sums) license. -/
theorem algebraic : Cert.algebraic_KernelIdeal_ReferenceIdeal := by
  intro m ρ m' ρ' hpre hagree
  refine ⟨fun c => Cert.Bridge.G (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hne⟩ := Cert.PreDecode.decode _ (hpre c)
  rw [Cert.ReferenceIdeal.Read.val_main_v5_eq, hagree c]
  exact Cert.Bridge.ref_eq_G _ hfin hne

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
